-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "eps_sq" .f32 0x24E69595#32 ((126765058482001 / 1267650600228229401496703205376 : ℝ) : EReal)
  ∧ IdealRules.named_const.Statement Cert.KernelIdeal.κ "eps_sq" .f32 0x24E69595#32 ((126765058482001 / 1267650600228229401496703205376 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S32x512 : Shape := ⟨2, ![32, 512]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel

variable [Facts]

def fn {F : FTy → Type} [FloatOps F] (main_arg0 : FVec F S32x512x768 .f32) (main_arg1 : FVec F S32x512x768 .f32) (main_arg2 : IVec S32x512 32) (main_arg3 : IVec S32x512 32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S32x512x768 .f32 := Host.absf main_arg1
  let main_cst_0 : FVec F S_ .f32 := constant S_ .f32 0x7F800000#32
  let main_v5 : FVec F S32x512x768 .f32 := broadcastInDim S32x512x768 ![] bcast_S_S32x512x768 main_cst_0
  let main_v6 : IVec S32x512x768 1 := cmpf .olt main_v4 main_v5
  let main_c_1 : IVec S_ 1 := constantI S_ 1 1#1
  let main_v7 : IVec S_ 1 := (fun x v => Host.reduce IntOp.andi x v reducesTo_S32x512x768_S_d0_1_2 h_S_) main_v6 main_c_1
  let main_v8 : IVec S_ 1 := andi main_v3 main_v7
  main_v8
-- ==== Kernel.lean ====
abbrev S32x512x768 : Shape := ⟨3, ![32, 512, 768]⟩
abbrev S32x512 : Shape := ⟨2, ![32, 512]⟩
abbrev S32x512x1 : Shape := ⟨3, ![32, 512, 1]⟩
abbrev S32x1x512 : Shape := ⟨3, ![32, 1, 512]⟩
abbrev S32x8x128 : Shape := ⟨3, ![32, 8, 128]⟩
abbrev S4x512x768 : Shape := ⟨3, ![4, 512, 768]⟩
abbrev S4x512x1 : Shape := ⟨3, ![4, 512, 1]⟩
abbrev S4x1x512 : Shape := ⟨3, ![4, 1, 512]⟩
abbrev S4x8x128 : Shape := ⟨3, ![4, 8, 128]⟩
abbrev S1x512x768 : Shape := ⟨3, ![1, 512, 768]⟩
abbrev S512x768 : Shape := ⟨2, ![512, 768]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S768x512 : Shape := ⟨2, ![768, 512]⟩
abbrev S512x512 : Shape := ⟨2, ![512, 512]⟩
abbrev S1 : Shape := ⟨1, ![1]⟩
abbrev S1x1 : Shape := ⟨2, ![1, 1]⟩
abbrev S8x128 : Shape := ⟨2, ![8, 128]⟩
abbrev S1x8x128 : Shape := ⟨3, ![1, 8, 128]⟩
abbrev S32x1x1 : Shape := ⟨3, ![32, 1, 1]⟩
abbrev S32 : Shape := ⟨1, ![32]⟩

abbrev nBuf : Space → Nat
  | .hbm => 11
  | .vmem => 10
  | .smem => 0
  | _ => 0

abbrev bufTy : (tb : Table) → Fin (tcTables nBuf tb) → BufTy
  | .hbm, ⟨0, _⟩ => ⟨S32x512x768, .f32⟩
  | .hbm, ⟨1, _⟩ => ⟨S32x512x768, .f32⟩
  | .hbm, ⟨2, _⟩ => ⟨S32x512, .i32⟩
  | .hbm, ⟨3, _⟩ => ⟨S32x512, .i32⟩
  | .hbm, ⟨4, _⟩ => ⟨S32x512, .f32⟩
  | .hbm, ⟨5, _⟩ => ⟨S32x512x1, .f32⟩
  | .hbm, ⟨6, _⟩ => ⟨S32x512, .f32⟩
  | .hbm, ⟨7, _⟩ => ⟨S32x1x512, .f32⟩
  | .hbm, ⟨8, _⟩ => ⟨S32x8x128, .f32⟩
  | .hbm, ⟨9, _⟩ => ⟨S32x1x1, .f32⟩
  | .hbm, ⟨10, _⟩ => ⟨S32, .f32⟩
  | .local _ .vmem, ⟨0, _⟩ => ⟨S4x512x768, .f32⟩
  | .local _ .vmem, ⟨1, _⟩ => ⟨S4x512x768, .f32⟩
  | .local _ .vmem, ⟨2, _⟩ => ⟨S4x512x768, .f32⟩
  | .local _ .vmem, ⟨3, _⟩ => ⟨S4x512x768, .f32⟩
  | .local _ .vmem, ⟨4, _⟩ => ⟨S4x512x1, .f32⟩
  | .local _ .vmem, ⟨5, _⟩ => ⟨S4x512x1, .f32⟩
  | .local _ .vmem, ⟨6, _⟩ => ⟨S4x1x512, .f32⟩
  | .local _ .vmem, ⟨7, _⟩ => ⟨S4x1x512, .f32⟩
  | .local _ .vmem, ⟨8, _⟩ => ⟨S4x8x128, .f32⟩
  | .local _ .vmem, ⟨9, _⟩ => ⟨S4x8x128, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1 : Index := Scalar.indexCast arg6
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v7 : Index := Scalar.indexCast arg6
  let c0_4 : Index := 0#32
  let c0_5 : Index := 0#32
  ![v7.toNat, 0, 0]
def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let v10 : Index := Scalar.indexCast arg6
  let c0_6 : Index := 0#32
  let c0_7 : Index := 0#32
  ![v10.toNat, 0, 0]
def k0_off4 (k0_t1 : Fin k0_t1_loop.trips) : Fin 3 → Nat :=
  let c0_i32 : BitVec 32 := 0#32
  let c1_i32 : BitVec 32 := 1#32
  let arg6 : BitVec 32 := Scf.iv c0_i32 c1_i32 k0_t1
  let v67 : Index := Scalar.indexCast arg6
  let c0_25 : Index := 0#32
  let c0_26 : Index := 0#32
  ![v67.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  h_S1x512x768 : 0 < S1x512x768.numel
  shapeCasts_S1x512x768_S512x768 : S1x512x768.ShapeCasts S512x768
  h_S1x512x1 : 0 < S1x512x1.numel
  shapeCasts_S1x512x1_S512x1 : S1x512x1.ShapeCasts S512x1
  h_S1x1x512 : 0 < S1x1x512.numel
  shapeCasts_S1x1x512_S1x512 : S1x1x512.ShapeCasts S1x512
  reduces_S512x768_S512 : S512x768.Reduces [1] S512
  shapeCasts_S512_S512x1 : S512.ShapeCasts S512x1
  broadcasts_S512x1_S512x768 : S512x1.Broadcasts S512x768
  bitsLt_bf16_f32 : FTy.bits .bf16 < FTy.bits .f32
  transposes_S512x768_p1_0_S768x512 : S512x768.Transposes [1, 0] S768x512
  broadcasts_S512x1_S512x512 : S512x1.Broadcasts S512x512
  broadcasts_S1x512_S512x512 : S1x512.Broadcasts S512x512
  reduces_S512x512_S512 : S512x512.Reduces [1] S512
  reduces_S512x512_S512_2 : S512x512.Reduces [0] S512
  shapeCasts_S512_S1x512 : S512.ShapeCasts S1x512
  reduces_S512x1_S1 : S512x1.Reduces [0] S1
  shapeCasts_S1_S1x1 : S1.ShapeCasts S1x1
  reduces_S1x512_S1 : S1x512.Reduces [1] S1
  shapeCasts_S1x1_S1x1 : S1x1.ShapeCasts S1x1
  broadcasts_S1x1_S8x128 : S1x1.Broadcasts S8x128
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  dot_S512x768_S768x512_S512x512_1_0_0_1_n_n_wf : DotDims.WF S512x768 S768x512 S512x512 [1] [0] [0] [1] [] []
  hrank0 : 0 < grid0.rank
  k0_t1_ok : k0_t1_loop.OK
  k0_off1_inb : ∀ k0_t1 : Fin k0_t1_loop.trips, ∀ a, (k0_off1 k0_t1) a + S1x512x768.size a ≤ S4x512x768.size a
  k0_off2_inb : ∀ k0_t1 : Fin k0_t1_loop.trips, ∀ a, (k0_off2 k0_t1) a + S1x512x1.size a ≤ S4x512x1.size a
  k0_off3_inb : ∀ k0_t1 : Fin k0_t1_loop.trips, ∀ a, (k0_off3 k0_t1) a + S1x1x512.size a ≤ S4x1x512.size a
  k0_off4_inb : ∀ k0_t1 : Fin k0_t1_loop.trips, ∀ a, (k0_off4 k0_t1) a + S1x8x128.size a ≤ S4x8x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S32x512x768.size a
  hwx0_0 : ∀ i : grid0.Coords, EltTy.bits .f32 = 32 ∨ (Rect.block (s := S32x512x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x768.size a ≤ S32x512x768.size a
  hwx0_1 : ∀ i : grid0.Coords, EltTy.bits .f32 = 32 ∨ (Rect.block (s := S32x512x768) S4x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S32x512x1.size a
  hwx0_2 : ∀ i : grid0.Coords, EltTy.bits .f32 = 32 ∨ (Rect.block (s := S32x512x1) S4x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512.size a ≤ S32x1x512.size a
  hwx0_3 : ∀ i : grid0.Coords, EltTy.bits .f32 = 32 ∨ (Rect.block (s := S32x1x512) S4x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x8x128.size a ≤ S32x8x128.size a
  hwx0_4 : ∀ i : grid0.Coords, EltTy.bits .f32 = 32 ∨ (Rect.block (s := S32x8x128) S4x8x128.size (cc0_transform_4 i) (hinb0_4 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S32x512 : Shape := ⟨2, ![32, 512]⟩
abbrev S_ : Shape := ⟨0, ![]⟩
abbrev S32x512x1 : Shape := ⟨3, ![32, 512, 1]⟩
abbrev S32x512x512 : Shape := ⟨3, ![32, 512, 512]⟩
abbrev S32x1x512 : Shape := ⟨3, ![32, 1, 512]⟩
abbrev S32 : Shape := ⟨1, ![32]⟩

abbrev nBuf : Space → Nat
  | .hbm => 70
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x512x768, .f32⟩
  | .hbm, ⟨2, _⟩ => ⟨S32x512, .i32⟩
  | .hbm, ⟨3, _⟩ => ⟨S32x512, .i32⟩
  | .hbm, ⟨4, _⟩ => ⟨S32x512x768, .f32⟩
  | .hbm, ⟨5, _⟩ => ⟨S_, .f32⟩
  | .hbm, ⟨6, _⟩ => ⟨S32x512, .f32⟩
  | .hbm, ⟨7, _⟩ => ⟨S32x512x1, .f32⟩
  | .hbm, ⟨8, _⟩ => ⟨S32x512x1, .f32⟩
  | .hbm, ⟨9, _⟩ => ⟨S_, .f32⟩
  | .hbm, ⟨10, _⟩ => ⟨S32x512x1, .f32⟩
  | .hbm, ⟨11, _⟩ => ⟨S32x512x1, .f32⟩
  | .hbm, ⟨12, _⟩ => ⟨S32x512x768, .f32⟩
  | .hbm, ⟨13, _⟩ => ⟨S32x512x768, .f32⟩
  | .hbm, ⟨14, _⟩ => ⟨S32x512x768, .f32⟩
  | .hbm, ⟨15, _⟩ => ⟨S_, .f32⟩
  | .hbm, ⟨16, _⟩ => ⟨S32x512, .f32⟩
  | .hbm, ⟨17, _⟩ => ⟨S32x512x1, .f32⟩
  | .hbm, ⟨18, _⟩ => ⟨S32x512x1, .f32⟩
  | .hbm, ⟨19, _⟩ => ⟨S_, .f32⟩
  | .hbm, ⟨20, _⟩ => ⟨S32x512x1, .f32⟩
  | .hbm, ⟨21, _⟩ => ⟨S32x512x1, .f32⟩
  | .hbm, ⟨22, _⟩ => ⟨S32x512x768, .f32⟩
  | .hbm, ⟨23, _⟩ => ⟨S32x512x768, .f32⟩
  | .hbm, ⟨24, _⟩ => ⟨S32x512x512, .f32⟩
  | .hbm, ⟨25, _⟩ => ⟨S32x512, .f32⟩
  | .hbm, ⟨26, _⟩ => ⟨S32x512, .f32⟩
  | .hbm, ⟨27, _⟩ => ⟨S32x512x1, .f32⟩
  | .hbm, ⟨28, _⟩ => ⟨S32x1x512, .f32⟩
  | .hbm, ⟨29, _⟩ => ⟨S32x512x512, .f32⟩
  | .hbm, ⟨30, _⟩ => ⟨S32x512x512, .f32⟩
  | .hbm, ⟨31, _⟩ => ⟨S32x512x512, .f32⟩
  | .hbm, ⟨32, _⟩ => ⟨S_, .f32⟩
  | .hbm, ⟨33, _⟩ => ⟨S32x512x512, .f32⟩
  | .hbm, ⟨34, _⟩ => ⟨S32x512x512, .i1⟩
  | .hbm, ⟨35, _⟩ => ⟨S_, .f32⟩
  | .hbm, ⟨36, _⟩ => ⟨S32x512x512, .f32⟩
  | .hbm, ⟨37, _⟩ => ⟨S32x512x512, .f32⟩
  | .hbm, ⟨38, _⟩ => ⟨S_, .f32⟩
  | .hbm, ⟨39, _⟩ => ⟨S32x512, .f32⟩
  | .hbm, ⟨40, _⟩ => ⟨S32x512, .i1⟩
  | .hbm, ⟨41, _⟩ => ⟨S_, .f32⟩
  | .hbm, ⟨42, _⟩ => ⟨S32x512, .f32⟩
  | .hbm, ⟨43, _⟩ => ⟨S_, .f32⟩
  | .hbm, ⟨44, _⟩ => ⟨S_, .f32⟩
  | .hbm, ⟨45, _⟩ => ⟨S32x512, .f32⟩
  | .hbm, ⟨46, _⟩ => ⟨S32x512, .f32⟩
  | .hbm, ⟨47, _⟩ => ⟨S_, .f32⟩
  | .hbm, ⟨48, _⟩ => ⟨S32x512, .f32⟩
  | .hbm, ⟨49, _⟩ => ⟨S32x512, .i1⟩
  | .hbm, ⟨50, _⟩ => ⟨S_, .f32⟩
  | .hbm, ⟨51, _⟩ => ⟨S32x512, .f32⟩
  | .hbm, ⟨52, _⟩ => ⟨S_, .f32⟩
  | .hbm, ⟨53, _⟩ => ⟨S_, .f32⟩
  | .hbm, ⟨54, _⟩ => ⟨S32x512, .f32⟩
  | .hbm, ⟨55, _⟩ => ⟨S32x512, .f32⟩
  | .hbm, ⟨56, _⟩ => ⟨S_, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S32, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_call2_v0 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_cst_5 : Ref sig .tc := ⟨.hbm, 43, rfl⟩
abbrev main_call3_v0 : Ref sig .tc := ⟨.hbm, 44, rfl⟩
abbrev main_call3_v1 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_cst_7 : Ref sig .tc := ⟨.hbm, 50, rfl⟩
abbrev main_v27 : Ref sig .tc := ⟨.hbm, 51, rfl⟩
abbrev main_cst_8 : Ref sig .tc := ⟨.hbm, 52, rfl⟩
abbrev main_call4_v0 : Ref sig .tc := ⟨.hbm, 53, rfl⟩
abbrev main_call4_v1 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_cst_10 : Ref sig .tc := ⟨.hbm, 58, rfl⟩
abbrev main_v30 : Ref sig .tc := ⟨.hbm, 59, rfl⟩
abbrev main_v31 : Ref sig .tc := ⟨.hbm, 60, rfl⟩
abbrev main_cst_11 : Ref sig .tc := ⟨.hbm, 61, rfl⟩
abbrev main_v32 : Ref sig .tc := ⟨.hbm, 62, rfl⟩
abbrev main_cst_12 : Ref sig .tc := ⟨.hbm, 63, rfl⟩
abbrev main_v33 : Ref sig .tc := ⟨.hbm, 64, rfl⟩
abbrev main_v34 : Ref sig .tc := ⟨.hbm, 65, rfl⟩
abbrev main_cst_13 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩

abbrev nD : Nat := 1
abbrev τ : Topo := Topo.v7x

variable {F : FTy → Type} [FloatOps F]

class Facts₀ : Prop where
  reducesTo_S32x512x768_S32x512_d2 : S32x512x768.ReducesTo [2] S32x512
  h_S_ : 0 < S_.numel
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S32x512x1_S32x512x768_0_1_2 : S32x512x1.BroadcastsInDim S32x512x768 (![0, 1, 2] : Fin 3 → Fin S32x512x768.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S_S32x512x512 : S_.BroadcastsInDim S32x512x512 (![] : Fin 0 → Fin S32x512x512.rank)
  bcast_S_S32x512 : S_.BroadcastsInDim S32x512 (![] : Fin 0 → Fin S32x512.rank)
  reducesTo_S32x512x512_S32x512_d2 : S32x512x512.ReducesTo [2] S32x512
  reducesTo_S32x512x512_S32x512_d1 : S32x512x512.ReducesTo [1] S32x512
  reducesTo_S32x512_S32_d1 : S32x512.ReducesTo [1] S32
  bcast_S_S32 : S_.BroadcastsInDim S32 (![] : Fin 0 → Fin S32.rank)
  dot_S32x512x768_S32x512x768_S32x512x512_2_2_1_1_0_0_wf : DotDims.WF S32x512x768 S32x512x768 S32x512x512 [2] [2] [1] [1] [0] [0]

variable [Facts₀]

def dot_S32x512x768_S32x512x768_S32x512x512_2_2_1_1_0_0 : DotDims S32x512x768 S32x512x768 S32x512x512 where
  lhsContracting := [2]
  rhsContracting := [2]
  lhsNonContracting := [1]
  rhsNonContracting := [1]
  lhsBatch := [0]
  rhsBatch := [0]
  wf := dot_S32x512x768_S32x512x768_S32x512x512_2_2_1_1_0_0_wf

class Facts : Prop extends Facts₀ where

variable [Facts]
-- ==== Proof.Spec.lean ====
/-
  The masked maximum-cosine score of one batch entry, as a function on the extended reals, and the law that joins
  the two ways of normalising a row.

  For one batch entry let x, y be the two 512 × 768 embedding matrices and m₁, m₂ the two masks as real numbers.
  A row v is normalised either as v · rsqrt(max(|v|², ε²)) or as v / max(√|v|², ε), where ε is the value of the f32
  word 0x322BCC77 (11258999 / 2^50) and ε² its exact square. The similarity of rows i, j is the dot product of the
  normalised rows; it is kept where m₁ i · m₂ j > 0 and replaced by −∞ elsewhere. Row i contributes the maximum of its
  kept similarities when m₁ i > 0 and 0 otherwise, column j likewise under m₂; the score is the sum of all
  contributions divided by max(Σ m₁ + Σ m₂, 1).

  Since √ is monotone, √(max(s, ε²)) = max(√s, ε) for s ≥ 0, and for a real a the product a · (√r)⁻¹ is the quotient
  a / √r: the two normalisations agree on rows of real numbers. Everything after the normalisation is one function
  of the similarities and the masks, and is never opened.
-/
import Idealize.ShloMosaic.PureOps.Ideal

noncomputable section

namespace CosSim

open Idealize.ShloMosaic

/-- The guard of the quotient form, the f32 word 0x322BCC77, is 11258999 / 2^50. -/
theorem ofBits_eps : Ideal.ofBits .f32 0x322BCC77#32 = ((11258999 / 1125899906842624 : ℝ) : EReal) := by
  simp [Ideal.ofBits, Ideal.ieee, -EReal.coe_mul]; norm_num

/-- The zero word is 0. -/
theorem ofBits_zero : Ideal.ofBits .f32 0x00000000#32 = 0 := by
  simp [Ideal.ofBits, Ideal.ieee]

/-- The guard of the reciprocal-square-root form: the exact square of the quotient form's guard. -/
abbrev epsSq : EReal := ((126765058482001 / 1267650600228229401496703205376 : ℝ) : EReal)

/-- The squared length of row i. -/
def ssq (x : Fin 512 → Fin 768 → EReal) (i : Fin 512) : EReal := ∑ d : Fin 768, x i d * x i d

/-- A matrix's rows normalised by the reciprocal square root of the guarded squared length. -/
def normRsqrt (x : Fin 512 → Fin 768 → EReal) (i : Fin 512) (d : Fin 768) : EReal :=
  x i d * Ideal.rsqrt (max (ssq x i) epsSq)

/-- A matrix's rows divided by the guarded length. -/
def normDiv (x : Fin 512 → Fin 768 → EReal) (i : Fin 512) (d : Fin 768) : EReal :=
  Ideal.div (x i d) (max (Ideal.sqrt (ssq x i)) (Ideal.ofBits .f32 0x322BCC77#32))

/-- The similarity of row i of the first matrix and row j of the second. -/
def sim (u v : Fin 512 → Fin 768 → EReal) (i j : Fin 512) : EReal := ∑ d : Fin 768, u i d * v j d

/-- The similarity where both masks are positive, −∞ elsewhere. -/
def masked (s : Fin 512 → Fin 512 → EReal) (m₁ m₂ : Fin 512 → EReal) (i j : Fin 512) : EReal :=
  Scalar.select (FloatOps.cmpf (F := Ideal) (φ := .f32) .ogt (m₁ i * m₂ j) (Ideal.ofBits .f32 0x00000000#32)) (s i j)
    (Ideal.ofBits .f32 0xFF800000#32)

/-- Row i's contribution: its largest kept similarity if m₁ i > 0, else 0. -/
def rowTerm (s : Fin 512 → Fin 512 → EReal) (m₁ m₂ : Fin 512 → EReal) (i : Fin 512) : EReal :=
  Scalar.select (FloatOps.cmpf (F := Ideal) (φ := .f32) .ogt (m₁ i) (Ideal.ofBits .f32 0x00000000#32))
    ((Finset.univ : Finset (Fin 512)).fold max (Ideal.ofBits .f32 0xFF800000#32) (fun j => masked s m₁ m₂ i j))
    (Ideal.ofBits .f32 0x00000000#32)

/-- Column j's contribution: its largest kept similarity if m₂ j > 0, else 0. -/
def colTerm (s : Fin 512 → Fin 512 → EReal) (m₁ m₂ : Fin 512 → EReal) (j : Fin 512) : EReal :=
  Scalar.select (FloatOps.cmpf (F := Ideal) (φ := .f32) .ogt (m₂ j) (Ideal.ofBits .f32 0x00000000#32))
    ((Finset.univ : Finset (Fin 512)).fold max (Ideal.ofBits .f32 0xFF800000#32) (fun i => masked s m₁ m₂ i j))
    (Ideal.ofBits .f32 0x00000000#32)

/-- The score: all contributions, over the guarded count of the masks. -/
def score (s : Fin 512 → Fin 512 → EReal) (m₁ m₂ : Fin 512 → EReal) : EReal :=
  Ideal.div ((∑ i : Fin 512, rowTerm s m₁ m₂ i) + (∑ j : Fin 512, colTerm s m₁ m₂ j))
    (max ((∑ i : Fin 512, m₁ i) + (∑ j : Fin 512, m₂ j)) (Ideal.ofBits .f32 0x3F800000#32))

/-- A finite sum of (images of) reals is the image of the sum. -/
theorem coe_sum {ι : Type*} (t : Finset ι) (f : ι → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- The image of a maximum of reals is the maximum of the images. -/
theorem coe_max (x y : ℝ) : ((max x y : ℝ) : EReal) = max (x : EReal) (y : EReal) :=
  EReal.coe_strictMono.monotone.map_max

/-- For a real a and a real s ≥ 0: a · rsqrt(max(s, ε²)) = a / max(√s, ε). -/
theorem normalise_eq (a s : ℝ) (hs : 0 ≤ s) :
    (a : EReal) * Ideal.rsqrt (max (s : EReal) epsSq)
      = Ideal.div (a : EReal) (max (Ideal.sqrt (s : EReal)) (Ideal.ofBits .f32 0x322BCC77#32)) := by
  have hD : (0 : ℝ) < 11258999 / 1125899906842624 := by norm_num
  have hD2 : (126765058482001 / 1267650600228229401496703205376 : ℝ) = (11258999 / 1125899906842624 : ℝ) ^ 2 := by norm_num
  have hmono : Monotone Real.sqrt := fun _ _ h => Real.sqrt_le_sqrt h
  have hsq : Real.sqrt (max s (126765058482001 / 1267650600228229401496703205376))
      = max (Real.sqrt s) (11258999 / 1125899906842624) := by
    rw [hmono.map_max, hD2, Real.sqrt_sq hD.le]
  have hpos : (0 : ℝ) < max s (126765058482001 / 1267650600228229401496703205376) :=
    lt_max_of_lt_right (by norm_num)
  have hne : max (Real.sqrt s) (11258999 / 1125899906842624 : ℝ) ≠ 0 := (lt_max_of_lt_right hD).ne'
  rw [ofBits_eps, Ideal.sqrt_coe, if_neg (not_lt.2 hs), ← coe_max (Real.sqrt s), Ideal.div_coe hne, one_div, ← hsq]
  show (a : EReal) * Ideal.rsqrt (max (s : EReal) ((126765058482001 / 1267650600228229401496703205376 : ℝ) : EReal)) = _
  rw [← coe_max s, Ideal.rsqrt_coe, if_neg (not_lt.2 hpos.le), if_neg hpos.ne']

/-- On a matrix of real numbers the two normalisations agree. -/
theorem normRsqrt_eq_normDiv (x : Fin 512 → Fin 768 → EReal) (hx : ∀ i d, x i d = ((x i d).toReal : EReal)) :
    normRsqrt x = normDiv x := by
  funext i d
  have hss : ssq x i = ((∑ k : Fin 768, (x i k).toReal * (x i k).toReal : ℝ) : EReal) := by
    unfold ssq
    rw [← coe_sum]
    exact Finset.sum_congr rfl fun k _ => by rw [EReal.coe_mul, ← hx i k]
  unfold normRsqrt normDiv
  rw [hss, hx i d]
  exact normalise_eq _ _ (Finset.sum_nonneg fun k _ => mul_self_nonneg _)

end CosSim

end
-- ==== Proof.RefValue.lean ====
/-
  The reference program read at one batch entry.

  For a batch index b the reference's result at b is the masked maximum-cosine score of the b-th slices of its four
  arguments: with X i d = x0[b, i, d], Y j d = x1[b, j, d] the two embedding matrices and m₁ i, m₂ j the two integer
  masks converted to floats, the program divides every row by its guarded length, contracts the normalised rows
  over the feature axis, keeps the similarity where m₁ i · m₂ j > 0 and writes −∞ elsewhere, takes the maximum of each
  row and of each column, selects those maxima by the masks, sums them, and divides by the guarded count of the masks.
  Each stage below reads one value of the program at literal coordinates and identifies it with the matching
  function of the specification; the reductions become sums or folds over the reduced axis's coordinates, and the
  broadcasts become re-indexings that are checked coordinate by coordinate.
-/
import proofs.«161407_j85976655332046_2_alg».proof.Proof.Spec
import proofs.«161407_j85976655332046_2_alg».proof.Proof.RefRead
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-- The b-th matrix of a rank-3 argument. -/
abbrev mat (x : (⟨S32x512x768, .f32⟩ : BufTy).Contents (Elt Ideal)) (b : Fin 32) : Fin 512 → Fin 768 → EReal :=
  fun i d => x (ix3 b i d)

/-- The b-th mask of a rank-2 integer argument, as floats. -/
abbrev msk (x : (⟨S32x512, .i32⟩ : BufTy).Contents (Elt Ideal)) (b : Fin 32) : Fin 512 → EReal :=
  fun i => FloatOps.sitofp (F := Ideal) .f32 (x (ix2 b i))

/-- The sum of squares the program forms for row (b, i) is the squared length of row i of the b-th matrix. -/
theorem ssq_entry (x : (⟨S32x512x768, .f32⟩ : BufTy).Contents (Elt Ideal)) (b : Fin 32) (i : Fin 512) :
    val_main_call0_v1 (F := Ideal) x (ix2 b i) = CosSim.ssq (mat x b) i := by
  rw [val_main_call0_v1_apply]
  show Ideal.ofBits .f32 0x00000000#32
      + ∑ k : Fin 768, x (idx_main_call0_v1 (ix2 b i) k) * x (idx_main_call0_v1 (ix2 b i) k) = _
  rw [CosSim.ofBits_zero, zero_add]
  unfold CosSim.ssq
  refine Finset.sum_congr rfl fun k _ => ?_
  have e : idx_main_call0_v1 (ix2 b i) k = ix3 b i k :=
    funext fun a => Fin.ext (by match a with | ⟨0, _⟩ => rfl | ⟨1, _⟩ => rfl | ⟨2, _⟩ => rfl)
  rw [e]

/-- An entry of the first normalised operand is the entry divided by the guarded length of its row. -/
theorem norm_entry (x : (⟨S32x512x768, .f32⟩ : BufTy).Contents (Elt Ideal)) (b : Fin 32) (i : Fin 512) (d : Fin 768) :
    val_main_v4 (F := Ideal) x (ix3 b i d) = CosSim.normDiv (mat x b) i d := by
  rw [val_main_v4_apply, val_main_v3_apply, val_main_v2_apply, val_main_v0_apply, val_main_call0_v2_apply,
    val_main_v1_apply]
  have e : idx_main_call0_v2 (idx_main_v3 (ix3 b i d)) = ix2 b i :=
    funext fun a => Fin.ext (by match a with | ⟨0, _⟩ => rfl | ⟨1, _⟩ => rfl)
  rw [e, ssq_entry]
  rfl

/-- The second operand is normalised by the same function as the first. -/
theorem v9_eq_v4 (x : (⟨S32x512x768, .f32⟩ : BufTy).Contents (Elt Ideal)) :
    val_main_v9 (F := Ideal) x = val_main_v4 (F := Ideal) x := rfl

/-- An entry of the contraction is the similarity of the two normalised rows. -/
theorem sim_entry (x0 x1 : (⟨S32x512x768, .f32⟩ : BufTy).Contents (Elt Ideal)) (b : Fin 32) (i j : Fin 512) :
    val_main_v10 (F := Ideal) x0 x1 (ix3 b i j)
      = CosSim.sim (CosSim.normDiv (mat x0 b)) (CosSim.normDiv (mat x1 b)) i j := by
  rw [val_main_v10_apply]
  unfold CosSim.sim
  refine Finset.sum_congr rfl fun k _ => ?_
  have el : lidx_main_v10 (ix3 b i j) k = ix3 b i k :=
    funext fun a => Fin.ext (by match a with | ⟨0, _⟩ => rfl | ⟨1, _⟩ => rfl | ⟨2, _⟩ => rfl)
  have er : ridx_main_v10 (ix3 b i j) k = ix3 b j k :=
    funext fun a => Fin.ext (by match a with | ⟨0, _⟩ => rfl | ⟨1, _⟩ => rfl | ⟨2, _⟩ => rfl)
  rw [el, er, v9_eq_v4, norm_entry, norm_entry]

/-- An entry of the masked similarities: the similarity where the product of the two masks is positive, −∞ elsewhere. -/
theorem masked_entry (x0 x1 : (⟨S32x512x768, .f32⟩ : BufTy).Contents (Elt Ideal))
    (x2 x3 : (⟨S32x512, .i32⟩ : BufTy).Contents (Elt Ideal)) (b : Fin 32) (i j : Fin 512) :
    val_main_v20 (F := Ideal) x0 x1 x2 x3 (ix3 b i j)
      = CosSim.masked (CosSim.sim (CosSim.normDiv (mat x0 b)) (CosSim.normDiv (mat x1 b))) (msk x2 b) (msk x3 b) i j := by
  rw [val_main_v20_apply, val_main_v19_apply, val_main_v17_apply, val_main_v15_apply, val_main_v13_apply,
    val_main_v16_apply, val_main_v14_apply, val_main_v18_apply, val_main_call2_v0_apply, sim_entry]
  have e1 : idx_main_v13 (idx_main_v15 (ix3 b i j)) = ix2 b i :=
    funext fun a => Fin.ext (by match a with | ⟨0, _⟩ => rfl | ⟨1, _⟩ => rfl)
  have e2 : idx_main_v14 (idx_main_v16 (ix3 b i j)) = ix2 b j :=
    funext fun a => Fin.ext (by match a with | ⟨0, _⟩ => rfl | ⟨1, _⟩ => rfl)
  rw [e1, e2]
  rfl

/-- The maximum over the last axis, at (b, i), is the fold of max over row i of the masked similarities. -/
theorem rowmax_entry (x0 x1 : (⟨S32x512x768, .f32⟩ : BufTy).Contents (Elt Ideal))
    (x2 x3 : (⟨S32x512, .i32⟩ : BufTy).Contents (Elt Ideal)) (b : Fin 32) (i : Fin 512) :
    val_main_v23 (F := Ideal) x0 x1 x2 x3 (ix2 b i)
      = (Finset.univ : Finset (Fin 512)).fold max (Ideal.ofBits .f32 0xFF800000#32)
          (fun j => CosSim.masked (CosSim.sim (CosSim.normDiv (mat x0 b)) (CosSim.normDiv (mat x1 b))) (msk x2 b) (msk x3 b) i j) := by
  have hr : S32x512x512.Reduces [2] S32x512 := by decide
  unfold val_main_v23
  refine (Host.reduce_eq_fold_single (FloatOps.maximumf (F := Ideal)) _ _ reducesTo_S32x512x512_S32x512_d2 hr h_S_
    (ix2 b i)).trans ?_
  show (Finset.univ : Finset (Fin 512)).fold max (Ideal.ofBits .f32 0xFF800000#32)
      (fun j => val_main_v20 (F := Ideal) x0 x1 x2 x3 (hr.lift (ix2 b i) j)) = _
  refine Finset.fold_congr fun (j : Fin 512) _ => ?_
  have e : hr.lift (ix2 b i) j = ix3 b i j :=
    funext fun a => Fin.ext (by match a with | ⟨0, _⟩ => rfl | ⟨1, _⟩ => rfl | ⟨2, _⟩ => rfl)
  rw [e, masked_entry]

/-- The maximum over the middle axis, at (b, j), is the fold of max over column j of the masked similarities. -/
theorem colmax_entry (x0 x1 : (⟨S32x512x768, .f32⟩ : BufTy).Contents (Elt Ideal))
    (x2 x3 : (⟨S32x512, .i32⟩ : BufTy).Contents (Elt Ideal)) (b : Fin 32) (j : Fin 512) :
    val_main_v27 (F := Ideal) x0 x1 x2 x3 (ix2 b j)
      = (Finset.univ : Finset (Fin 512)).fold max (Ideal.ofBits .f32 0xFF800000#32)
          (fun i => CosSim.masked (CosSim.sim (CosSim.normDiv (mat x0 b)) (CosSim.normDiv (mat x1 b))) (msk x2 b) (msk x3 b) i j) := by
  have hr : S32x512x512.Reduces [1] S32x512 := by decide
  unfold val_main_v27
  refine (Host.reduce_eq_fold_single (FloatOps.maximumf (F := Ideal)) _ _ reducesTo_S32x512x512_S32x512_d1 hr h_S_
    (ix2 b j)).trans ?_
  show (Finset.univ : Finset (Fin 512)).fold max (Ideal.ofBits .f32 0xFF800000#32)
      (fun i => val_main_v20 (F := Ideal) x0 x1 x2 x3 (hr.lift (ix2 b j) i)) = _
  refine Finset.fold_congr fun (i : Fin 512) _ => ?_
  have e : hr.lift (ix2 b j) i = ix3 b i j :=
    funext fun a => Fin.ext (by match a with | ⟨0, _⟩ => rfl | ⟨1, _⟩ => rfl | ⟨2, _⟩ => rfl)
  rw [e, masked_entry]

/-- Row i's selected maximum is its contribution to the score. -/
theorem row_entry (x0 x1 : (⟨S32x512x768, .f32⟩ : BufTy).Contents (Elt Ideal))
    (x2 x3 : (⟨S32x512, .i32⟩ : BufTy).Contents (Elt Ideal)) (b : Fin 32) (i : Fin 512) :
    val_main_v24 (F := Ideal) x0 x1 x2 x3 (ix2 b i)
      = CosSim.rowTerm (CosSim.sim (CosSim.normDiv (mat x0 b)) (CosSim.normDiv (mat x1 b))) (msk x2 b) (msk x3 b) i := by
  rw [val_main_v24_apply, val_main_v22_apply, val_main_v21_apply, val_main_call3_v1_apply, rowmax_entry]
  rfl

/-- Column j's selected maximum is its contribution to the score. -/
theorem col_entry (x0 x1 : (⟨S32x512x768, .f32⟩ : BufTy).Contents (Elt Ideal))
    (x2 x3 : (⟨S32x512, .i32⟩ : BufTy).Contents (Elt Ideal)) (b : Fin 32) (j : Fin 512) :
    val_main_v28 (F := Ideal) x0 x1 x2 x3 (ix2 b j)
      = CosSim.colTerm (CosSim.sim (CosSim.normDiv (mat x0 b)) (CosSim.normDiv (mat x1 b))) (msk x2 b) (msk x3 b) j := by
  rw [val_main_v28_apply, val_main_v26_apply, val_main_v25_apply, val_main_call4_v1_apply, colmax_entry]
  rfl

/-- The sum of the row contributions of batch entry b. -/
theorem rowsum_entry (x0 x1 : (⟨S32x512x768, .f32⟩ : BufTy).Contents (Elt Ideal))
    (x2 x3 : (⟨S32x512, .i32⟩ : BufTy).Contents (Elt Ideal)) (b : Fin 32) :
    val_main_v32 (F := Ideal) x0 x1 x2 x3 (ix1 b)
      = ∑ i : Fin 512, CosSim.rowTerm (CosSim.sim (CosSim.normDiv (mat x0 b)) (CosSim.normDiv (mat x1 b))) (msk x2 b) (msk x3 b) i := by
  rw [val_main_v32_apply]
  show Ideal.ofBits .f32 0x00000000#32 + ∑ k : Fin 512, val_main_v24 (F := Ideal) x0 x1 x2 x3 (idx_main_v32 (ix1 b) k) = _
  rw [CosSim.ofBits_zero, zero_add]
  refine Finset.sum_congr rfl fun k _ => ?_
  have e : idx_main_v32 (ix1 b) k = ix2 b k :=
    funext fun a => Fin.ext (by match a with | ⟨0, _⟩ => rfl | ⟨1, _⟩ => rfl)
  rw [e, row_entry]

/-- The sum of the column contributions of batch entry b. -/
theorem colsum_entry (x0 x1 : (⟨S32x512x768, .f32⟩ : BufTy).Contents (Elt Ideal))
    (x2 x3 : (⟨S32x512, .i32⟩ : BufTy).Contents (Elt Ideal)) (b : Fin 32) :
    val_main_v33 (F := Ideal) x0 x1 x2 x3 (ix1 b)
      = ∑ j : Fin 512, CosSim.colTerm (CosSim.sim (CosSim.normDiv (mat x0 b)) (CosSim.normDiv (mat x1 b))) (msk x2 b) (msk x3 b) j := by
  rw [val_main_v33_apply]
  show Ideal.ofBits .f32 0x00000000#32 + ∑ k : Fin 512, val_main_v28 (F := Ideal) x0 x1 x2 x3 (idx_main_v33 (ix1 b) k) = _
  rw [CosSim.ofBits_zero, zero_add]
  refine Finset.sum_congr rfl fun k _ => ?_
  have e : idx_main_v33 (ix1 b) k = ix2 b k :=
    funext fun a => Fin.ext (by match a with | ⟨0, _⟩ => rfl | ⟨1, _⟩ => rfl)
  rw [e, col_entry]

/-- The count of the first mask of batch entry b. -/
theorem count1_entry (x2 : (⟨S32x512, .i32⟩ : BufTy).Contents (Elt Ideal)) (b : Fin 32) :
    val_main_v29 (F := Ideal) x2 (ix1 b) = ∑ i : Fin 512, msk x2 b i := by
  rw [val_main_v29_apply]
  show Ideal.ofBits .f32 0x00000000#32 + ∑ k : Fin 512, FloatOps.sitofp (F := Ideal) .f32 (x2 (idx_main_v29 (ix1 b) k)) = _
  rw [CosSim.ofBits_zero, zero_add]
  refine Finset.sum_congr rfl fun k _ => ?_
  have e : idx_main_v29 (ix1 b) k = ix2 b k :=
    funext fun a => Fin.ext (by match a with | ⟨0, _⟩ => rfl | ⟨1, _⟩ => rfl)
  rw [e]

/-- The count of the second mask of batch entry b. -/
theorem count2_entry (x3 : (⟨S32x512, .i32⟩ : BufTy).Contents (Elt Ideal)) (b : Fin 32) :
    val_main_v30 (F := Ideal) x3 (ix1 b) = ∑ j : Fin 512, msk x3 b j := by
  rw [val_main_v30_apply]
  show Ideal.ofBits .f32 0x00000000#32 + ∑ k : Fin 512, FloatOps.sitofp (F := Ideal) .f32 (x3 (idx_main_v30 (ix1 b) k)) = _
  rw [CosSim.ofBits_zero, zero_add]
  refine Finset.sum_congr rfl fun k _ => ?_
  have e : idx_main_v30 (ix1 b) k = ix2 b k :=
    funext fun a => Fin.ext (by match a with | ⟨0, _⟩ => rfl | ⟨1, _⟩ => rfl)
  rw [e]

open Idealize.ShloMosaic Idealize.ShloMosaic.ValueIdx in
/-- The reference's result at batch entry b is the score of the b-th slices of its arguments. -/
theorem ref_value (x0 x1 : (⟨S32x512x768, .f32⟩ : BufTy).Contents (Elt Ideal)) (x2 x3 : (⟨S32x512, .i32⟩ : BufTy).Contents (Elt Ideal)) (b : Fin 32) :
    Cert.ReferenceIdeal.ReadP.val_main_v37 (F := Ideal) x0 x1 x2 x3 (ix1 b)
      = CosSim.score
          (CosSim.sim (CosSim.normDiv fun i d => x0 (ix3 b i d)) (CosSim.normDiv fun j d => x1 (ix3 b j d)))
          (fun i => FloatOps.sitofp (F := Ideal) .f32 (x2 (ix2 b i))) (fun j => FloatOps.sitofp (F := Ideal) .f32 (x3 (ix2 b j))) := by
  rw [val_main_v37_apply, val_main_v34_apply, val_main_v36_apply, val_main_v31_apply, val_main_v35_apply,
    rowsum_entry, colsum_entry, count1_entry, count2_entry]
  rfl

end Cert.ReferenceIdeal.RefValue

end
-- ==== Proof.KTrip.lean ====
/-
  One trip of the body's loop over the four batch entries of a block, and the block the body leaves.

  Trip k loads entry k of each of the four input blocks (the slab [k, :, :] of each), computes the entry's score, and
  stores the score, splat over an 8 × 128 tile, into slab k of the output block. So the pieces the four trips leave
  are four slabs, slab k holding a value that depends only on entry k of the inputs; they tile the output block, and the
  block reads, at (k, r, q), trip k's value at (0, r, q).
-/
import proofs.«161407_j85976655332046_2_alg».proof.Proof.Gen.KernelIdeal.Frame
import Idealize.ShloMosaic.Lib.Pipeline.Value
import Idealize.ShloMosaic.Lib.Tactic

noncomputable section

namespace Cert.KernelIdeal.Hand

open Idealize.ShloMosaic Idealize.ShloMosaic.TcCoe Idealize.ShloMosaic.Tactic Idealize.SL.Sem
open Cert.KernelIdeal Cert.KernelIdeal.Gen

variable {F : FTy → Type} [FloatOps F] [Named F]

/-- Slab k of an embedding block: what trip k loads of it. -/
def slabE (x : S4x512x768.Idx → Elt F .f32) (k : Fin k0_t1_loop.trips) : Vec F S1x512x768 .f32 :=
  View.ld x (Rect.unit (s := S4x512x768) (k0_off1 k) S1x512x768.size (k0_off1_inb k))
/-- Slab k of the first mask's block. -/
def slabM1 (x : S4x512x1.Idx → Elt F .f32) (k : Fin k0_t1_loop.trips) : Vec F S1x512x1 .f32 :=
  View.ld x (Rect.unit (s := S4x512x1) (k0_off2 k) S1x512x1.size (k0_off2_inb k))
/-- Slab k of the second mask's block. -/
def slabM2 (x : S4x1x512.Idx → Elt F .f32) (k : Fin k0_t1_loop.trips) : Vec F S1x1x512 .f32 :=
  View.ld x (Rect.unit (s := S4x1x512) (k0_off3 k) S1x1x512.size (k0_off3_inb k))

/-- What trip k stores: the body's arithmetic on entry k of the four input blocks. -/
def tripVal (x0 x1 : S4x512x768.Idx → Elt F .f32) (x2 : S4x512x1.Idx → Elt F .f32) (x3 : S4x1x512.Idx → Elt F .f32)
    (k : Fin k0_t1_loop.trips) : FVec F S1x8x128 .f32 :=
  k0_pay1 (k0_pay2 (slabM1 x2 k)) (k0_pay3 (slabM2 x3 k))
    (k0_pay4 (slabE x0 k) (slabE x1 k) (slabM1 x2 k) (slabM2 x3 k))
    (k0_pay5 (slabE x0 k) (slabE x1 k) (slabM1 x2 k) (slabM2 x3 k))
    (k0_pay6 (F := F))

/-- Trip k leaves one piece: slab k of the output block, holding `tripVal` of what the input buffers read. -/
theorem tripL_eq (𝒱 : Variants) (c : Dev nD) (bd : Option 𝒱.V) (i : grid0.Coords) (arg1 : Memref sig .tc .vmem S4x512x768 .f32) (harg1 : arg1.IsWhole) (arg2 : Memref sig .tc .vmem S4x512x768 .f32) (harg2 : arg2.IsWhole) (arg3 : Memref sig .tc .vmem S4x512x1 .f32) (harg3 : arg3.IsWhole) (arg4 : Memref sig .tc .vmem S4x1x512 .f32) (harg4 : arg4.IsWhole) (arg5 : Memref sig .tc .vmem S4x8x128 .f32) (harg5 : arg5.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) :
    tripL_k0_t1 (F := F) 𝒱 c bd i arg1 harg1 arg2 harg2 arg3 harg3 arg4 harg4 arg5 harg5 X_arg1 X_arg2 X_arg3 X_arg4 k
      = [⟨Rect.unit (k0_off4 k) S1x8x128.size (k0_off4_inb k),
          tripVal (arg1.view.read (Elt F) X_arg1) (arg2.view.read (Elt F) X_arg2) (arg3.view.read (Elt F) X_arg3) (arg4.view.read (Elt F) X_arg4) k⟩] := by
  unfold tripL_k0_t1 trip_k0_t1
  dsimp only
  sl_unfold_run_names
  simp only [View.readAt_eq_ld]
  rfl

/-- Every piece the first n trips leave is some trip's slab. -/
theorem mem_pb (𝒱 : Variants) (c : Dev nD) (bd : Option 𝒱.V) (i : grid0.Coords) (arg1 : Memref sig .tc .vmem S4x512x768 .f32) (harg1 : arg1.IsWhole) (arg2 : Memref sig .tc .vmem S4x512x768 .f32) (harg2 : arg2.IsWhole) (arg3 : Memref sig .tc .vmem S4x512x1 .f32) (harg3 : arg3.IsWhole) (arg4 : Memref sig .tc .vmem S4x1x512 .f32) (harg4 : arg4.IsWhole) (arg5 : Memref sig .tc .vmem S4x8x128 .f32) (harg5 : arg5.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) :
    ∀ (n : ℕ) (p : View.Piece (Elt F) S4x8x128 .f32),
      p ∈ pb_k0_t1 (F := F) 𝒱 c bd i arg1 harg1 arg2 harg2 arg3 harg3 arg4 harg4 arg5 harg5 X_arg1 X_arg2 X_arg3 X_arg4 n →
      ∃ k : Fin k0_t1_loop.trips, p = ⟨Rect.unit (k0_off4 k) S1x8x128.size (k0_off4_inb k),
          tripVal (arg1.view.read (Elt F) X_arg1) (arg2.view.read (Elt F) X_arg2) (arg3.view.read (Elt F) X_arg3) (arg4.view.read (Elt F) X_arg4) k⟩
  | 0, p, hp => by rw [pb_k0_t1.eq_1] at hp; exact absurd hp List.not_mem_nil
  | n + 1, p, hp => by
    rw [pb_k0_t1.eq_2] at hp
    unfold pb_k0_t1Step at hp
    split_ifs at hp with h
    · rcases List.mem_append.mp hp with h1 | h2
      · rw [tripL_eq] at h1
        exact ⟨⟨n, h⟩, List.mem_singleton.mp h1⟩
      · exact mem_pb 𝒱 c bd i arg1 harg1 arg2 harg2 arg3 harg3 arg4 harg4 arg5 harg5 X_arg1 X_arg2 X_arg3 X_arg4 n p h2
    · exact mem_pb 𝒱 c bd i arg1 harg1 arg2 harg2 arg3 harg3 arg4 harg4 arg5 harg5 X_arg1 X_arg2 X_arg3 X_arg4 n p hp

/-- The block the body leaves is any function G of the block's index whose slab k is trip k's value. -/
theorem out_eq (c : Dev nD) (i : grid0.Coords) (arg1 : Memref sig .tc .vmem S4x512x768 .f32) (harg1 : arg1.IsWhole) (arg2 : Memref sig .tc .vmem S4x512x768 .f32) (harg2 : arg2.IsWhole) (arg3 : Memref sig .tc .vmem S4x512x1 .f32) (harg3 : arg3.IsWhole) (arg4 : Memref sig .tc .vmem S4x1x512 .f32) (harg4 : arg4.IsWhole) (arg5 : Memref sig .tc .vmem S4x8x128 .f32) (harg5 : arg5.IsWhole)
    (x0 : Vec F S4x512x768 .f32) (x1 : Vec F S4x512x768 .f32) (x2 : Vec F S4x512x1 .f32) (x3 : Vec F S4x1x512 .f32)
    (G : S4x8x128.Idx → Elt F .f32)
    (hG : ∀ (k : Fin k0_t1_loop.trips) (x : S1x8x128.Idx),
      tripVal x0 x1 x2 x3 k x = G ((Rect.unit (s := S4x8x128) (k0_off4 k) S1x8x128.size (k0_off4_inb k)).emb x)) :
    out0_A_4 c i arg1 harg1 arg2 harg2 arg3 harg3 arg4 harg4 arg5 harg5 x0 x1 x2 x3 = G := by
  unfold out0_A_4
  rw [View.read_writes_eq_canon _ _ _ (cover0_A_4 c i arg1 harg1 arg2 harg2 arg3 harg3 arg4 harg4 arg5 harg5 x0 x1 x2 x3)]
  funext y
  refine View.canon_apply_of_pieces G _ ?_ y (cover0_A_4 c i arg1 harg1 arg2 harg2 arg3 harg3 arg4 harg4 arg5 harg5 x0 x1 x2 x3 y)
  intro p hp x
  unfold kernelRun0_A at hp
  dsimp only at hp
  obtain ⟨k, rfl⟩ := mem_pb _ c _ i arg1 harg1 arg2 harg2 arg3 harg3 arg4 harg4 arg5 harg5 _ _ _ _ _ p hp
  simp only [harg1.read_unread, harg2.read_unread, harg3.read_unread, harg4.read_unread]
  exact hG k x

end Cert.KernelIdeal.Hand

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«161407_j85976655332046_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibMaxAxis0.lean ====
/-
  The maximum over axis 0 of a matrix, read at a column, at exact arithmetic.

  The maximum over axis 0 of an [A, B] matrix at column c is the fold of max over the column's entries (k, c), from the
  initial word's value — the companion, for columns, of a row's maximum over axis 1.
-/
import Idealize.ShloMosaic.Lib.ValueIdx
import Idealize.ShloMosaic.Lib.Pipeline.Value
import Idealize.ShloMosaic.PureOps.Ideal.Laws

noncomputable section

namespace LibMaxAxis0

open Idealize.ShloMosaic Idealize.ShloMosaic.ValueIdx

/-- The maximum over axis 0 of an [A, B] matrix, at column c: the fold of max over the column, from the initial word's value. -/
theorem max_axis0_apply {A B : ℕ} {φ : FTy} (src : FVec Ideal ⟨2, ![A, B]⟩ φ) (acc : BitVec φ.bits)
    (h : Shape.Reduces ⟨2, ![A, B]⟩ [0] ⟨1, ![B]⟩) (hφ : FKind.Formats φ) (hacc : acc = FKind.maximumf.neutral φ hφ) (c : Fin B) :
    multiReduction .maximumf [0] ⟨1, ![B]⟩ src acc h hφ hacc (ix1 c)
      = (Finset.univ : Finset (Fin A)).fold max (Ideal.ofBits φ acc) (fun k => src (ix2 k c)) := by
  refine (Ideal.multiReduction_maximumf_single src acc h hφ hacc (ix1 c)).trans ?_
  refine congrArg (fun g => Finset.fold max (Ideal.ofBits φ acc) g (Finset.univ : Finset (Fin A))) (funext fun k => congrArg src ?_)
  funext d
  match d with
  | ⟨0, _⟩ => exact Fin.ext rfl
  | ⟨1, _⟩ => exact Fin.ext rfl

end LibMaxAxis0

end
-- ==== Proof.KPayload.lean ====
/-
  The body's arithmetic on one batch entry, read at an index, is the masked maximum-cosine score.

  The entry's two 512 × 768 matrices are normalised row by row with the reciprocal square root of the guarded squared
  length; their product against the transpose, into a zero accumulator, is the matrix of row similarities; a
  similarity is kept where the product of the two masks is positive; each row's and each column's maximum is taken and
  kept where that row's or column's mask is positive; the kept maxima and the masks are summed and the quotient is
  splat over the 8 × 128 tile. Every step is read at an index; the result is `CosSim.score` of the similarities and
  masks, whatever the index of the tile.
-/
import proofs.«161407_j85976655332046_2_alg».proof.Proof.Gen.KernelIdeal.Skeleton
import proofs.«161407_j85976655332046_2_alg».proof.Proof.Spec
import proofs.«161407_j85976655332046_2_alg».proof.Proof.LibColumnOps
import proofs.«161407_j85976655332046_2_alg».proof.Proof.LibMatmulIdx
import proofs.«161407_j85976655332046_2_alg».proof.Proof.LibMaxAxis0
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Hand

open Idealize.ShloMosaic Idealize.ShloMosaic.ValueIdx
open Cert.KernelIdeal Cert.KernelIdeal.Gen

/-- The named guard constant denotes the exact square of the quotient form's guard. -/
theorem eps_named : Named.named (F := Ideal) κ "eps_sq" (φ := .f32) 0x24E69595#32 = CosSim.epsSq :=
  IdealRules.named_const.ideal_named_scalar _ _ _ _ rfl

/-- The rows of a [1, 512, 768] slab. -/
abbrev rowsOf (v : Vec Ideal S1x512x768 .f32) : Fin 512 → Fin 768 → EReal := fun i d => v (ix3 (0 : Fin 1) i d)

/-- The squared length of row i, kept as a column. -/
theorem sumsq_col (v3 : FVec Ideal S512x768 .f32) (i : Fin 512) :
    shapeCast S512x1 (multiReduction .add [1] S512 (mulf v3 v3) 0x00000000#32 reduces_S512x768_S512 (.inl rfl) rfl) shapeCasts_S512_S512x1 (ix2 i (0 : Fin 1))
      = CosSim.ssq (fun i d => v3 (ix2 i d)) i := by
  refine (LibKeepdims.shapeCast_col_apply _ _ i 0).trans ?_
  refine (LibKeepdims.sum_axis1_apply (mulf v3 v3) _ _ _ _ i).trans ?_
  rfl

/-- A row entry times the reciprocal square root of the row's guarded squared length. -/
theorem normalised_apply (v3 : FVec Ideal S512x768 .f32) (i : Fin 512) (d : Fin 768) :
    mulf v3 (broadcastTo S512x768 (rsqrt (maximumf (shapeCast S512x1 (multiReduction .add [1] S512 (mulf v3 v3) 0x00000000#32 reduces_S512x768_S512 (.inl rfl) rfl) shapeCasts_S512_S512x1)
        (broadcast S512x1 (Named.named (F := Ideal) κ "eps_sq" (φ := .f32) 0x24E69595#32)))) broadcasts_S512x1_S512x768) (ix2 i d)
      = CosSim.normRsqrt (fun i d => v3 (ix2 i d)) i d := by
  rw [mulf_apply, LibColumnOps.broadcastTo_col_apply]
  show v3 (ix2 i d) * Ideal.rsqrt (max (shapeCast S512x1 _ shapeCasts_S512_S512x1 (ix2 i (0 : Fin 1))) (Named.named (F := Ideal) κ "eps_sq" (φ := .f32) 0x24E69595#32)) = _
  rw [sumsq_col, eps_named]
  rfl

/-- The product of an M × K by a K × N matrix into the zero accumulator, at (i, j): the sum over the contracted axis. -/
theorem matmul_entry (l : FVec Ideal S512x768 .bf16) (r : FVec Ideal S768x512 .bf16) (i j : Fin 512) :
    matmul dot_S512x768_S768x512_S512x512_1_0_0_1_n_n none l r (constant S512x512 .f32 0x00000000#32) (ix2 i j)
      = ∑ k : Fin 768, l (ix2 i k) * r (ix2 k j) := by
  refine LibMatmulIdx.matmul2_apply dot_S512x768_S768x512_S512x512_1_0_0_1_n_n rfl rfl ?_ ?_ ?_ ?_ none l r (ix2 i j)
  · intro j k
    unfold DotDims.lhsIdx
    rw [dif_neg (show ¬(0 : Fin S512x768.rank) ∈ dot_S512x768_S768x512_S512x512_1_0_0_1_n_n.lhsBatch by decide), dif_pos (show (0 : Fin S512x768.rank) ∈ dot_S512x768_S768x512_S512x512_1_0_0_1_n_n.lhsNonContracting by decide)]
    rfl
  · exact fun j k => dot_S512x768_S768x512_S512x512_1_0_0_1_n_n.lhsIdx_val_of_single rfl j k
  · exact fun j k => dot_S512x768_S768x512_S512x512_1_0_0_1_n_n.rhsIdx_val_of_single rfl j k
  · intro j k
    unfold DotDims.rhsIdx
    rw [dif_neg (show ¬(1 : Fin S768x512.rank) ∈ dot_S512x768_S768x512_S512x512_1_0_0_1_n_n.rhsBatch by decide), dif_pos (show (1 : Fin S768x512.rank) ∈ dot_S512x768_S768x512_S512x512_1_0_0_1_n_n.rhsNonContracting by decide)]
    rfl

variable (v2 v5 : Vec Ideal S1x512x768 .f32) (v8 : Vec Ideal S1x512x1 .f32) (v11 : Vec Ideal S1x1x512 .f32)

/-- The first mask of the entry, as a function of the row. -/
abbrev mask1Of (v8 : Vec Ideal S1x512x1 .f32) : Fin 512 → EReal := fun i => v8 (ix3 (0 : Fin 1) i (0 : Fin 1))
/-- The second mask of the entry, as a function of the column. -/
abbrev mask2Of (v11 : Vec Ideal S1x1x512 .f32) : Fin 512 → EReal := fun j => v11 (ix3 (0 : Fin 1) (0 : Fin 1) j)

/-- The entry's similarity matrix. -/
abbrev simOf (v2 v5 : Vec Ideal S1x512x768 .f32) : Fin 512 → Fin 512 → EReal :=
  CosSim.sim (CosSim.normRsqrt (rowsOf v2)) (CosSim.normRsqrt (rowsOf v5))

/-- The masked similarity at (i, j). -/
theorem pay4_apply (i j : Fin 512) :
    k0_pay4 (F := Ideal) v2 v5 v8 v11 (ix2 i j) = CosSim.masked (simOf v2 v5) (mask1Of v8) (mask2Of v11) i j := by
  unfold k0_pay4 k0_pay2 k0_pay3
  dsimp only
  rw [select_apply, cmpf_apply, mulf_apply, LibColumnOps.broadcastTo_col_apply, broadcastTo_1b_ab_apply,
    shapeCast_1ab_ab_apply, shapeCast_1ab_ab_apply, matmul_entry]
  unfold CosSim.masked
  refine congrArg₂ (fun a b => Scalar.select a b _) rfl ?_
  refine Finset.sum_congr rfl fun k _ => ?_
  rw [truncf_apply, transpose_ix2_apply, truncf_apply, normalised_apply, normalised_apply]
  refine congrArg₂ (· * ·) ?_ ?_
  · refine congrFun (congrFun (congrArg CosSim.normRsqrt ?_) i) k
    funext a b; exact shapeCast_1ab_ab_apply v2 _ a b
  · refine congrFun (congrFun (congrArg CosSim.normRsqrt ?_) j) k
    funext a b; exact shapeCast_1ab_ab_apply v5 _ a b

/-- Row i's largest masked similarity, kept as a column. -/
theorem pay5_apply (i : Fin 512) :
    k0_pay5 (F := Ideal) v2 v5 v8 v11 (ix2 i (0 : Fin 1))
      = (Finset.univ : Finset (Fin 512)).fold max (Ideal.ofBits .f32 0xFF800000#32)
          (fun j => CosSim.masked (simOf v2 v5) (mask1Of v8) (mask2Of v11) i j) := by
  unfold k0_pay5
  dsimp only
  refine (LibKeepdims.shapeCast_col_apply _ _ i 0).trans ?_
  refine (LibColumnOps.max_axis1_apply _ _ _ _ _ i).trans ?_
  exact congrArg (fun g => Finset.fold max (Ideal.ofBits .f32 0xFF800000#32) g (Finset.univ : Finset (Fin 512)))
    (funext fun j => pay4_apply v2 v5 v8 v11 i j)

/-- A [1, 1] matrix broadcast to [a, b] reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The stored tile: the score of the entry, at every index of the tile. -/
theorem pay1_apply (v9 : FVec Ideal S512x1 .f32) (v12 : FVec Ideal S1x512 .f32) (v39 : FVec Ideal S512x512 .f32) (v41 : FVec Ideal S512x1 .f32)
    (s : Fin 512 → Fin 512 → EReal) (m₁ m₂ : Fin 512 → EReal)
    (h9 : ∀ i : Fin 512, v9 (ix2 i (0 : Fin 1)) = m₁ i) (h12 : ∀ j : Fin 512, v12 (ix2 (0 : Fin 1) j) = m₂ j)
    (h39 : ∀ i j : Fin 512, v39 (ix2 i j) = CosSim.masked s m₁ m₂ i j)
    (h41 : ∀ i : Fin 512, v41 (ix2 i (0 : Fin 1))
      = (Finset.univ : Finset (Fin 512)).fold max (Ideal.ofBits .f32 0xFF800000#32) (fun j => CosSim.masked s m₁ m₂ i j))
    (x : S1x8x128.Idx) :
    k0_pay1 (F := Ideal) v9 v12 v39 v41 (k0_pay6 (F := Ideal)) x = CosSim.score s m₁ m₂ := by
  obtain ⟨u, r, q, rfl⟩ : ∃ (u : Fin 1) (r : Fin 8) (q : Fin 128), x = ix3 u r q := ⟨x 0, x 1, x 2, eq_ix3 x⟩
  unfold k0_pay1 k0_pay6
  dsimp only
  rw [shapeCast_ab_1ab_apply, broadcastTo_11_ab_apply, shapeCast_self, divf_apply, addf_apply, maximumf_apply, addf_apply, broadcast_apply]
  have e53 : ∀ (w : FVec Ideal S1 .f32), shapeCast S1x1 w shapeCasts_S1_S1x1 (ix2 (0 : Fin 1) (0 : Fin 1)) = w (ix1 (0 : Fin 1)) :=
    fun w => LibKeepdims.shapeCast_col_apply w _ 0 0
  rw [e53, e53, e53, e53]
  unfold CosSim.score
  refine congrArg₂ Ideal.div (congrArg₂ (· + ·) ?_ ?_) (congrArg₂ max (congrArg₂ (· + ·) ?_ ?_) rfl)
  · refine (LibKeepdims.sum_axis0_apply _ _ _ _ _ (0 : Fin 1)).trans ?_
    refine Finset.sum_congr rfl fun k _ => ?_
    rw [select_apply, cmpf_apply, h9, h41]
    rfl
  · refine (LibKeepdims.sum_axis1_apply _ _ _ _ _ (0 : Fin 1)).trans ?_
    refine Finset.sum_congr rfl fun k _ => ?_
    have e : shapeCast S1x512 (multiReduction .maximumf [0] S512 v39 0xFF800000#32 reduces_S512x512_S512_2 (.inl rfl) rfl) shapeCasts_S512_S1x512 (ix2 (0 : Fin 1) k)
        = (Finset.univ : Finset (Fin 512)).fold max (Ideal.ofBits .f32 0xFF800000#32) (fun i => CosSim.masked s m₁ m₂ i k) := by
      refine (shapeCast_a_1a_apply _ _ (0 : Fin 1) k).trans ?_
      refine (LibMaxAxis0.max_axis0_apply _ _ _ _ _ k).trans ?_
      exact congrArg (fun g => Finset.fold max (Ideal.ofBits .f32 0xFF800000#32) g (Finset.univ : Finset (Fin 512)))
        (funext fun i => h39 i k)
    rw [select_apply, cmpf_apply, h12, e]
    rfl
  · refine (LibKeepdims.sum_axis0_apply _ _ _ _ _ (0 : Fin 1)).trans ?_
    exact Finset.sum_congr rfl fun k _ => h9 k
  · refine (LibKeepdims.sum_axis1_apply _ _ _ _ _ (0 : Fin 1)).trans ?_
    exact Finset.sum_congr rfl fun k _ => h12 k

/-- The value a trip stores, from the four loaded slabs: the score of the slabs' entry. -/
theorem pay_apply (x : S1x8x128.Idx) :
    k0_pay1 (F := Ideal) (k0_pay2 v8) (k0_pay3 v11) (k0_pay4 v2 v5 v8 v11) (k0_pay5 v2 v5 v8 v11) (k0_pay6 (F := Ideal)) x
      = CosSim.score (simOf v2 v5) (mask1Of v8) (mask2Of v11) :=
  pay1_apply _ _ _ _ _ _ _
    (fun i => shapeCast_1ab_ab_apply v8 _ i 0) (fun j => shapeCast_1ab_ab_apply v11 _ 0 j)
    (pay4_apply v2 v5 v8 v11) (pay5_apply v2 v5 v8 v11) x

end Cert.KernelIdeal.Hand

end
-- ==== Proof.KBlock.lean ====
/-
  The block the body leaves, as the score of each of its four batch entries.

  Trip k of the body's loop reads slab k of each input block — offsets (k, 0, 0), unit strides — so the value it stores
  is the score of entry k of the block, and it stores it at slab k of the output block. The output block therefore
  reads, at (k, r, q), the score of entry k, for every r, q.
-/
import proofs.«161407_j85976655332046_2_alg».proof.Proof.KTrip
import proofs.«161407_j85976655332046_2_alg».proof.Proof.KPayload

noncomputable section

namespace Cert.KernelIdeal.Hand

open Idealize.ShloMosaic Idealize.ShloMosaic.ValueIdx Idealize.ShloMosaic.TcCoe Idealize.SL.Sem
open Cert.KernelIdeal Cert.KernelIdeal.Gen

/-- The score of entry k of a block of four batch entries. -/
def entryScore (x0 x1 : S4x512x768.Idx → EReal) (x2 : S4x512x1.Idx → EReal) (x3 : S4x1x512.Idx → EReal) (k : Fin 4) : EReal :=
  CosSim.score (CosSim.sim (CosSim.normRsqrt fun i d => x0 (ix3 k i d)) (CosSim.normRsqrt fun j d => x1 (ix3 k j d)))
    (fun i => x2 (ix3 k i (0 : Fin 1))) (fun j => x3 (ix3 k (0 : Fin 1) j))

/-- The loop makes at most four trips. -/
theorem trip_lt (k : Fin k0_t1_loop.trips) : k.val < 4 := Nat.lt_of_lt_of_le k.isLt k0_t1_abs.2.1

/-- The induction variable of trip k, as an index, is k. -/
theorem iv_toNat (k : Fin k0_t1_loop.trips) : (Scalar.indexCast (Scf.iv (0#32) (1#32) k.val)).toNat = k.val := by
  have h : ∀ n : ℕ, n < 4 → (Scalar.indexCast (Scf.iv (0#32) (1#32) n)).toNat = n := by
    intro n hn
    interval_cases n <;> decide
  exact h k.val (trip_lt k)

/-- Each of the trip's rectangles starts at (k, 0, 0). -/
theorem off1_eq (k : Fin k0_t1_loop.trips) : k0_off1 k = ![k.val, 0, 0] := by
  show ![(Scalar.indexCast (Scf.iv (0#32) (1#32) k.val)).toNat, 0, 0] = _; rw [iv_toNat]
theorem off2_eq (k : Fin k0_t1_loop.trips) : k0_off2 k = ![k.val, 0, 0] := by
  show ![(Scalar.indexCast (Scf.iv (0#32) (1#32) k.val)).toNat, 0, 0] = _; rw [iv_toNat]
theorem off3_eq (k : Fin k0_t1_loop.trips) : k0_off3 k = ![k.val, 0, 0] := by
  show ![(Scalar.indexCast (Scf.iv (0#32) (1#32) k.val)).toNat, 0, 0] = _; rw [iv_toNat]
theorem off4_eq (k : Fin k0_t1_loop.trips) : k0_off4 k = ![k.val, 0, 0] := by
  show ![(Scalar.indexCast (Scf.iv (0#32) (1#32) k.val)).toNat, 0, 0] = _; rw [iv_toNat]

/-- Slab kk of a [4, a, b] array: the unit-stride rectangle at (kk, 0, 0) places (0, i, d) at (kk, i, d). -/
theorem slab_emb {a b : ℕ} (off : Fin 3 → ℕ) (kk : Fin 4) (hoff : off = ![kk.val, 0, 0])
    (inb : ∀ ax, off ax + (![1, a, b] : Fin 3 → ℕ) ax ≤ (⟨3, ![4, a, b]⟩ : Shape).size ax) (i : Fin a) (d : Fin b) :
    (Rect.unit (s := ⟨3, ![4, a, b]⟩) off ![1, a, b] inb).emb (ix3 (0 : Fin 1) i d) = ix3 kk i d := by
  subst hoff
  funext ax
  apply Fin.ext
  rw [Rect.emb_apply, Rect.off_unit, Rect.stride_unit]
  match ax with
  | ⟨0, _⟩ => show kk.val + 1 * 0 = kk.val; omega
  | ⟨1, _⟩ => show 0 + 1 * i.val = i.val; omega
  | ⟨2, _⟩ => show 0 + 1 * d.val = d.val; omega

/-- Slab k of an embedding block at (0, i, d) is the block at (k, i, d). -/
theorem slabE_apply (x : S4x512x768.Idx → EReal) (k : Fin k0_t1_loop.trips) (i : Fin 512) (d : Fin 768) :
    slabE (F := Ideal) x k (ix3 (0 : Fin 1) i d) = x (ix3 ⟨k.val, trip_lt k⟩ i d) := by
  unfold slabE
  exact congrArg x (slab_emb _ ⟨k.val, trip_lt k⟩ (off1_eq k) _ i d)
/-- Slab k of the first mask's block at (0, i, 0) is the block at (k, i, 0). -/
theorem slabM1_apply (x : S4x512x1.Idx → EReal) (k : Fin k0_t1_loop.trips) (i : Fin 512) :
    slabM1 (F := Ideal) x k (ix3 (0 : Fin 1) i (0 : Fin 1)) = x (ix3 ⟨k.val, trip_lt k⟩ i (0 : Fin 1)) := by
  unfold slabM1
  exact congrArg x (slab_emb _ ⟨k.val, trip_lt k⟩ (off2_eq k) _ i 0)
/-- Slab k of the second mask's block at (0, 0, j) is the block at (k, 0, j). -/
theorem slabM2_apply (x : S4x1x512.Idx → EReal) (k : Fin k0_t1_loop.trips) (j : Fin 512) :
    slabM2 (F := Ideal) x k (ix3 (0 : Fin 1) (0 : Fin 1) j) = x (ix3 ⟨k.val, trip_lt k⟩ (0 : Fin 1) j) := by
  unfold slabM2
  exact congrArg x (slab_emb _ ⟨k.val, trip_lt k⟩ (off3_eq k) _ 0 j)

/-- What trip k stores is the score of entry k of the block, at every index of the tile. -/
theorem tripVal_apply (x0 x1 : S4x512x768.Idx → EReal) (x2 : S4x512x1.Idx → EReal) (x3 : S4x1x512.Idx → EReal)
    (k : Fin k0_t1_loop.trips) (x : S1x8x128.Idx) :
    tripVal (F := Ideal) x0 x1 x2 x3 k x = entryScore x0 x1 x2 x3 ⟨k.val, trip_lt k⟩ := by
  unfold tripVal
  refine (pay_apply (slabE (F := Ideal) x0 k) (slabE (F := Ideal) x1 k) (slabM1 (F := Ideal) x2 k) (slabM2 (F := Ideal) x3 k) x).trans ?_
  have e0 : rowsOf (slabE (F := Ideal) x0 k) = fun i d => x0 (ix3 ⟨k.val, trip_lt k⟩ i d) :=
    funext fun i => funext fun d => slabE_apply x0 k i d
  have e1 : rowsOf (slabE (F := Ideal) x1 k) = fun i d => x1 (ix3 ⟨k.val, trip_lt k⟩ i d) :=
    funext fun i => funext fun d => slabE_apply x1 k i d
  have e2 : mask1Of (slabM1 (F := Ideal) x2 k) = fun i => x2 (ix3 ⟨k.val, trip_lt k⟩ i (0 : Fin 1)) :=
    funext fun i => slabM1_apply x2 k i
  have e3 : mask2Of (slabM2 (F := Ideal) x3 k) = fun j => x3 (ix3 ⟨k.val, trip_lt k⟩ (0 : Fin 1) j) :=
    funext fun j => slabM2_apply x3 k j
  show CosSim.score (CosSim.sim (CosSim.normRsqrt (rowsOf (slabE (F := Ideal) x0 k))) (CosSim.normRsqrt (rowsOf (slabE (F := Ideal) x1 k))))
      (mask1Of (slabM1 (F := Ideal) x2 k)) (mask2Of (slabM2 (F := Ideal) x3 k)) = _
  rw [e0, e1, e2, e3]
  rfl

/-- The block the body leaves reads, at (k, r, q), the score of entry k of the input blocks. -/
theorem out_apply (c : Dev nD) (i : grid0.Coords) (arg1 : Memref sig .tc .vmem S4x512x768 .f32) (harg1 : arg1.IsWhole) (arg2 : Memref sig .tc .vmem S4x512x768 .f32) (harg2 : arg2.IsWhole) (arg3 : Memref sig .tc .vmem S4x512x1 .f32) (harg3 : arg3.IsWhole) (arg4 : Memref sig .tc .vmem S4x1x512 .f32) (harg4 : arg4.IsWhole) (arg5 : Memref sig .tc .vmem S4x8x128 .f32) (harg5 : arg5.IsWhole)
    (x0 : Vec Ideal S4x512x768 .f32) (x1 : Vec Ideal S4x512x768 .f32) (x2 : Vec Ideal S4x512x1 .f32) (x3 : Vec Ideal S4x1x512 .f32) :
    out0_A_4 (F := Ideal) c i arg1 harg1 arg2 harg2 arg3 harg3 arg4 harg4 arg5 harg5 x0 x1 x2 x3
      = fun y => entryScore x0 x1 x2 x3 ⟨(y 0).val, (y 0).isLt⟩ := by
  refine out_eq c i arg1 harg1 arg2 harg2 arg3 harg3 arg4 harg4 arg5 harg5 x0 x1 x2 x3 _ fun k x => ?_
  rw [tripVal_apply]
  refine congrArg (entryScore x0 x1 x2 x3) (Fin.ext ?_)
  have h4 : k0_off4 k 0 = k.val := by rw [off4_eq]; rfl
  have hx : (x 0).val = 0 := by have := (x 0).isLt; simp at this; omega
  have he : ((Rect.unit (s := S4x8x128) (k0_off4 k) S1x8x128.size (k0_off4_inb k)).emb x 0).val = k0_off4 k 0 + 1 * (x 0).val := by
    rw [Rect.emb_apply]; rfl
  show k.val = ((Rect.unit (s := S4x8x128) (k0_off4 k) S1x8x128.size (k0_off4_inb k)).emb x 0).val
  rw [he, h4, hx]
  omega

end Cert.KernelIdeal.Hand

end
-- ==== Proof.KValue.lean ====
/-
  The kernel program's result: the score of every batch entry, as one function of the argument arrays.

  Grid point t stages block t of each array — batch entries 4t … 4t + 3 — so entry k of the point's blocks is batch
  entry 4t + k: of the two embedding arrays directly, and of the two mask arrays through the host's conversion to real
  numbers and its insertion of a unit axis. The point writes its 4 × 8 × 128 output block to rows 4t … 4t + 3 of the
  32 × 8 × 128 result; the eight points' blocks tile it, so the result reads, at (b, r, q), the score of batch entry b.
  The host then keeps (b, 0, 0) for every b.
-/
import proofs.«161407_j85976655332046_2_alg».proof.Proof.KBlock
import Idealize.ShloMosaic.Lib.Pipeline.Value
import Idealize.ShloMosaic.Lib.StableHlo.Run

noncomputable section

namespace Cert.KernelIdeal.Hand

open Idealize.ShloMosaic Idealize.ShloMosaic.ValueIdx Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The score of batch entry b, from the four argument arrays. -/
def batchScore (a0 a1 : (⟨S32x512x768, .f32⟩ : BufTy).Contents (Elt Ideal)) (a2 a3 : (⟨S32x512, .i32⟩ : BufTy).Contents (Elt Ideal))
    (b : Fin 32) : EReal :=
  CosSim.score (CosSim.sim (CosSim.normRsqrt fun i d => a0 (ix3 b i d)) (CosSim.normRsqrt fun j d => a1 (ix3 b j d)))
    (fun i => FloatOps.sitofp (F := Ideal) .f32 (a2 (ix2 b i))) (fun j => FloatOps.sitofp (F := Ideal) .f32 (a3 (ix2 b j)))

/-- The result array of the region: at (b, r, q), the score of batch entry b. -/
def resultArr (c : Dev nD) : S32x8x128.Idx → EReal := fun z =>
  batchScore (m ((c : Thread nD τ).loc main_arg0)) (m ((c : Thread nD τ).loc main_arg1)) (m ((c : Thread nD τ).loc main_arg2))
    (m ((c : Thread nD τ).loc main_arg3)) ⟨(z 0).val, (z 0).isLt⟩

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The first mask array as the region finds it: the integer mask converted, with a unit axis appended. -/
theorem V_mask1 (c : Dev nD) : (V m c main_v1 : S32x512x1.Idx → EReal)
    = broadcastInDim S32x512x1 ![0, 1] bcast_S32x512_S32x512x1_0_1 (sitofp (F := Ideal) .f32 (m ((c : Thread nD τ).loc main_arg2))) := by
  show StableHlo.after hostOps0 (fun b => m (c, b)) (Proc.devRef .tc main_v1) = _
  after_results

/-- The second mask array as the region finds it: the integer mask converted, with a unit axis inserted in the middle. -/
theorem V_mask2 (c : Dev nD) : (V m c main_v3 : S32x1x512.Idx → EReal)
    = broadcastInDim S32x1x512 ![0, 2] bcast_S32x512_S32x1x512_0_2 (sitofp (F := Ideal) .f32 (m ((c : Thread nD τ).loc main_arg3))) := by
  show StableHlo.after hostOps0 (fun b => m (c, b)) (Proc.devRef .tc main_v3) = _
  after_results

/-- Entry k of point t's block of the first embedding array is batch entry 4t + k. -/
theorem iblk0_apply (c : Dev nD) (t : Fin cfg0.N) (k : Fin 4) (b : Fin 32) (hb : b.val = 4 * t.val + k.val) (i : Fin 512) (d : Fin 768) :
    (iblk m c 0 t : Vec Ideal S4x512x768 .f32) (ix3 k i d) = (m ((c : Thread nD τ).loc main_arg0) : S32x512x768.Idx → EReal) (ix3 b i d) := by
  obtain ⟨⟨e0, e1, e2⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 4 + 1 * k.val = b.val; rw [e0, hb]; omega
  | ⟨1, _⟩ => show win0_0.index t (1 : Fin 3) * 512 + 1 * i.val = i.val; rw [e1]; omega
  | ⟨2, _⟩ => show win0_0.index t (2 : Fin 3) * 768 + 1 * d.val = d.val; rw [e2]; omega

/-- The same for the second embedding array. -/
theorem iblk1_apply (c : Dev nD) (t : Fin cfg0.N) (k : Fin 4) (b : Fin 32) (hb : b.val = 4 * t.val + k.val) (i : Fin 512) (d : Fin 768) :
    (iblk m c 1 t : Vec Ideal S4x512x768 .f32) (ix3 k i d) = (m ((c : Thread nD τ).loc main_arg1) : S32x512x768.Idx → EReal) (ix3 b i d) := by
  obtain ⟨-, ⟨e0, e1, e2⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 4 + 1 * k.val = b.val; rw [e0, hb]; omega
  | ⟨1, _⟩ => show win0_1.index t (1 : Fin 3) * 512 + 1 * i.val = i.val; rw [e1]; omega
  | ⟨2, _⟩ => show win0_1.index t (2 : Fin 3) * 768 + 1 * d.val = d.val; rw [e2]; omega

/-- Entry k of point t's block of the first mask, at row i: the mask of batch entry 4t + k at i, as a real number. -/
theorem iblk2_apply (c : Dev nD) (t : Fin cfg0.N) (k : Fin 4) (b : Fin 32) (hb : b.val = 4 * t.val + k.val) (i : Fin 512) :
    (iblk m c 2 t : Vec Ideal S4x512x1 .f32) (ix3 k i (0 : Fin 1))
      = FloatOps.sitofp (F := Ideal) .f32 ((m ((c : Thread nD τ).loc main_arg2) : S32x512.Idx → BitVec 32) (ix2 b i)) := by
  obtain ⟨-, -, ⟨e0, e1, e2⟩, -⟩ := idx_facts t
  unfold iblk
  rw [View.read_apply]
  show V m c main_v1 _ = _
  rw [V_mask1]
  refine (broadcastInDim_apply _ _ _ _ (ix2 b i) fun a => ?_).trans rfl
  match a with
  | ⟨0, _⟩ => show b.val = if (32 : ℕ) = 1 then 0 else win0_2.index t (0 : Fin 3) * 4 + 1 * k.val; rw [if_neg (by decide), e0, hb]; omega
  | ⟨1, _⟩ => show i.val = if (512 : ℕ) = 1 then 0 else win0_2.index t (1 : Fin 3) * 512 + 1 * i.val; rw [if_neg (by decide), e1]; omega

/-- Entry k of point t's block of the second mask, at column j: the mask of batch entry 4t + k at j, as a real number. -/
theorem iblk3_apply (c : Dev nD) (t : Fin cfg0.N) (k : Fin 4) (b : Fin 32) (hb : b.val = 4 * t.val + k.val) (j : Fin 512) :
    (iblk m c 3 t : Vec Ideal S4x1x512 .f32) (ix3 k (0 : Fin 1) j)
      = FloatOps.sitofp (F := Ideal) .f32 ((m ((c : Thread nD τ).loc main_arg3) : S32x512.Idx → BitVec 32) (ix2 b j)) := by
  obtain ⟨-, -, -, ⟨e0, e1, e2⟩, -⟩ := idx_facts t
  unfold iblk
  rw [View.read_apply]
  show V m c main_v3 _ = _
  rw [V_mask2]
  refine (broadcastInDim_apply _ _ _ _ (ix2 b j) fun a => ?_).trans rfl
  match a with
  | ⟨0, _⟩ => show b.val = if (32 : ℕ) = 1 then 0 else win0_3.index t (0 : Fin 3) * 4 + 1 * k.val; rw [if_neg (by decide), e0, hb]; omega
  | ⟨1, _⟩ => show j.val = if (512 : ℕ) = 1 then 0 else win0_3.index t (2 : Fin 3) * 512 + 1 * j.val; rw [if_neg (by decide), e2]; omega

/-- The score of entry k of point t's blocks is the score of batch entry 4t + k. -/
theorem entry_eq (c : Dev nD) (t : Fin cfg0.N) (k : Fin 4) (b : Fin 32) (hb : b.val = 4 * t.val + k.val) :
    entryScore (iblk m c 0 t) (iblk m c 1 t) (iblk m c 2 t) (iblk m c 3 t) k
      = batchScore (m ((c : Thread nD τ).loc main_arg0)) (m ((c : Thread nD τ).loc main_arg1)) (m ((c : Thread nD τ).loc main_arg2))
          (m ((c : Thread nD τ).loc main_arg3)) b := by
  unfold entryScore batchScore
  rw [show (fun i d => (iblk m c 0 t : Vec Ideal S4x512x768 .f32) (ix3 k i d)) = fun i d => (m ((c : Thread nD τ).loc main_arg0) : S32x512x768.Idx → EReal) (ix3 b i d)
        from funext fun i => funext fun d => iblk0_apply m c t k b hb i d,
    show (fun j d => (iblk m c 1 t : Vec Ideal S4x512x768 .f32) (ix3 k j d)) = fun j d => (m ((c : Thread nD τ).loc main_arg1) : S32x512x768.Idx → EReal) (ix3 b j d)
        from funext fun i => funext fun d => iblk1_apply m c t k b hb i d,
    show (fun i => (iblk m c 2 t : Vec Ideal S4x512x1 .f32) (ix3 k i (0 : Fin 1))) = fun i => FloatOps.sitofp (F := Ideal) .f32 ((m ((c : Thread nD τ).loc main_arg2) : S32x512.Idx → BitVec 32) (ix2 b i))
        from funext fun i => iblk2_apply m c t k b hb i,
    show (fun j => (iblk m c 3 t : Vec Ideal S4x1x512 .f32) (ix3 k (0 : Fin 1) j)) = fun j => FloatOps.sitofp (F := Ideal) .f32 ((m ((c : Thread nD τ).loc main_arg3) : S32x512.Idx → BitVec 32) (ix2 b j))
        from funext fun j => iblk3_apply m c t k b hb j]

/-- What point t writes back is block t of the result array. -/
theorem flushed_eq (c : Dev nD) (t : Fin cfg0.N) :
    (dats m 0 c).flushed 4 t = ((cfg0.win 4).blk t).view.read (Elt Ideal) (resultArr m c) := by
  obtain ⟨-, -, -, -, ⟨e0, e1, e2⟩⟩ := idx_facts t
  show (cfg0.win 4).cut (grid0.coords t) ((dats m 0 c).after 4 t) = _
  rw [after0_4]
  unfold outsAt0
  rw [out_apply]
  funext y
  have ht : t.val < 8 := Nat.lt_of_lt_of_le t.isLt (Nat.le_of_eq N_0)
  have hy : (y 0).val < 4 := (y 0).isLt
  show entryScore (iblk m c 0 t) (iblk m c 1 t) (iblk m c 2 t) (iblk m c 3 t) ⟨(y 0).val, (y 0).isLt⟩
      = resultArr m c (((cfg0.win 4).blk t).view.emb y)
  unfold resultArr
  refine entry_eq m c t ⟨(y 0).val, hy⟩ _ ?_
  show win0_4.index t (0 : Fin 3) * 4 + 1 * (y 0).val = 4 * t.val + (y 0).val
  rw [e0]; omega

/-- An index of the result array is in point t's block iff each coordinate is in the block's range on its axis. -/
theorem mem_blk (t : Fin cfg0.N) (z : S32x8x128.Idx) :
    z ∈ ((cfg0.win 4).blk t).view.set ↔ ∀ a : Fin 3, win0_4.index t a * S4x8x128.size a ≤ (z a).val ∧ (z a).val < win0_4.index t a * S4x8x128.size a + S4x8x128.size a := by
  show z ∈ ((View.whole main_v4).slice (win0_4.rect t)).set ↔ _
  rw [View.set_slice_whole, Rect.mem_set_unit]
  exact Iff.rfl

/-- The eight blocks tile the result array: row b lies in the block of point b / 4. -/
theorem cover (z : S32x8x128.Idx) : ∃ t : Fin cfg0.N, (cfg0.win 4).flush t = true ∧ z ∈ ((cfg0.win 4).blk t).view.set := by
  have h0 : (z 0).val < 32 := (z 0).isLt
  have h1 : (z 1).val < 8 := (z 1).isLt
  have h2 : (z 2).val < 128 := (z 2).isLt
  have hN : cfg0.N = 8 := N_0
  refine ⟨⟨(z 0).val / 4, by rw [hN]; omega⟩, flush0_4 _, ?_⟩
  obtain ⟨-, -, -, -, ⟨e0, e1, e2⟩⟩ := idx_facts ⟨(z 0).val / 4, by rw [hN]; omega⟩
  rw [mem_blk]
  intro a
  match a with
  | ⟨0, _⟩ => show win0_4.index _ (0 : Fin 3) * 4 ≤ (z 0).val ∧ (z 0).val < win0_4.index _ (0 : Fin 3) * 4 + 4; rw [e0]; show (z 0).val / 4 * 4 ≤ (z 0).val ∧ (z 0).val < (z 0).val / 4 * 4 + 4; omega
  | ⟨1, _⟩ => show win0_4.index _ (1 : Fin 3) * 8 ≤ (z 1).val ∧ (z 1).val < win0_4.index _ (1 : Fin 3) * 8 + 8; rw [e1]; omega
  | ⟨2, _⟩ => show win0_4.index _ (2 : Fin 3) * 128 ≤ (z 2).val ∧ (z 2).val < win0_4.index _ (2 : Fin 3) * 128 + 128; rw [e2]; omega

/-- So the result array ends holding the scores. -/
theorem final (c : Dev nD) : (dats m 0 c).arrAt 4 cfg0.N = resultArr m c :=
  (dats m 0 c).arrAt_eq_of_cover 4 (resultArr m c) (fun t _ => flushed_eq m c t) (cover)

end Cert.KernelIdeal.Hand

end
-- ==== Proof.KRun.lean ====
/-
  The kernel program's run, read: its result is the score of every batch entry, its arguments are unchanged.

  The region leaves the 32 × 8 × 128 array of scores; the host keeps entry (b, 0, 0) for every b — a slice to
  32 × 1 × 1 and a cast to a vector of 32 — so the program's result at b is the score of batch entry b.
-/
import proofs.«161407_j85976655332046_2_alg».proof.Proof.KValue

noncomputable section

namespace Cert.KernelIdeal.Hand

open Idealize.ShloMosaic Idealize.ShloMosaic.ValueIdx Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The program's result: for every batch entry its score. -/
def result (c : Dev nD) : S32.Idx → EReal := fun j =>
  batchScore (m ((c : Thread nD τ).loc main_arg0)) (m ((c : Thread nD τ).loc main_arg1)) (m ((c : Thread nD τ).loc main_arg2))
    (m ((c : Thread nD τ).loc main_arg3)) ⟨(j 0).val, (j 0).isLt⟩

/-- The result at b is the score of batch entry b. -/
theorem result_apply (c : Dev nD) (b : Fin 32) :
    result m c (ix1 b) = batchScore (m ((c : Thread nD τ).loc main_arg0)) (m ((c : Thread nD τ).loc main_arg1))
      (m ((c : Thread nD τ).loc main_arg2)) (m ((c : Thread nD τ).loc main_arg3)) b := rfl

/-- After the region the host keeps entry (b, 0, 0) of the result array for every b. -/
theorem tail_result (c : Dev nD) :
    Pipeline.afterTail₀ cfgs (dats m) 0 (V0 m) [hostOps1] c main_v6 = result m c := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4)
      = resultArr m c :=
    (Pipeline.withArrays_arr spec0 launch0.win.arr_inj c _ _ 4).trans (final m c)
  rw [hw]
  funext j
  obtain ⟨b, rfl⟩ : ∃ b : Fin 32, j = ix1 b := ⟨j 0, eq_ix1 j⟩
  show shapeCast S32 (extractStridedSlice S32x1x1 ![0, 0, 0] (resultArr m c) slices_S32x8x128_S32x1x1_0_0_0) shapeCasts_S32x1x1_S32 (ix1 b) = _
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  refine (extractStridedSlice_apply _ _ _ (ix3 b (0 : Fin 1) (0 : Fin 1)) (ix3 b (0 : Fin 8) (0 : Fin 128)) fun a => ?_).trans rfl
  match a with
  | ⟨0, _⟩ => show b.val = 0 + b.val; omega
  | ⟨1, _⟩ => rfl
  | ⟨2, _⟩ => rfl

/-- Every weakly fair execution of the program terminates with the scores as its result and its arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.PreFinite.lean ====
/-
  The precondition, read back: both embedding arrays hold real numbers.

  The precondition is the conjunction of two statements "every entry of the array has absolute value below +∞", each a
  reduction by "and" over all entries; it is 1 exactly when both are, and each then says that the array is the image of
  its real parts.
-/
import proofs.«161407_j85976655332046_2_alg».proof.Pre_finite_inputs
import proofs.«161407_j85976655332046_2_alg».proof.Proof.LibFiniteEntries
import Idealize.ShloMosaic.Lib.ValueIdx
import Idealize.ShloMosaic.Lib.Affine

noncomputable section

namespace Cert.Pre_finite_inputs.Hand

open Idealize.ShloMosaic Cert.Pre_finite_inputs

/-- If the precondition holds of the four arrays, the two embedding arrays are the images of their real parts. -/
theorem real_of_pre [Facts] (a0 a1 : FVec Ideal S32x512x768 .f32) (a2 a3 : IVec S32x512 32)
    (h : fn (F := Ideal) a0 a1 a2 a3 = fun _ => 1#1) :
    (a0 = fun i => (((a0 i).toReal : ℝ) : EReal)) ∧ (a1 = fun i => (((a1 i).toReal : ℝ) : EReal)) := by
  have h0 := congrFun h ValueIdx.ix0
  dsimp only [fn] at h0
  obtain ⟨h3, h7⟩ := IntOp.andi_eq_one.mp h0
  exact ⟨LibFiniteEntries.real_of_all_abs_lt a0 _ (fun _ => rfl) _ _ _ ValueIdx.ix0 h3,
    LibFiniteEntries.real_of_all_abs_lt a1 _ (fun _ => rfl) _ _ _ ValueIdx.ix0 h7⟩

end Cert.Pre_finite_inputs.Hand

end
-- ==== Proof.lean ====
/-
  The masked maximum-cosine score of 32 batch entries: a TensorCore kernel against its array-level reference, at
  exact arithmetic on the extended reals.

  Both programs compute, for every batch entry, `CosSim.score` of the entry's row similarities and masks (Proof/Spec.lean).
  They differ in how a row is normalised — the kernel multiplies by the reciprocal square root of max(|v|², ε²), the
  reference divides by max(|v|, ε), ε the f32 word of 10⁻⁸ and ε² its exact square, the value the kernel's constant is
  named — and in how the work is laid out: the kernel takes four batch entries per grid point and one entry per trip of
  a loop, and keeps every reduced axis as a unit axis. On rows of real numbers the two normalisations agree
  (`CosSim.normRsqrt_eq_normDiv`), which is where the precondition — every embedding entry finite — is used; the
  rest is the same function of the same similarities and masks.
-/
import proofs.«161407_j85976655332046_2_alg».proof.Defs
import proofs.«161407_j85976655332046_2_alg».proof.Proof.Gen.Kernel
import proofs.«161407_j85976655332046_2_alg».proof.Proof.Gen.Kernel.Skeleton
import proofs.«161407_j85976655332046_2_alg».proof.Proof.Gen.Kernel.Loops
import proofs.«161407_j85976655332046_2_alg».proof.Proof.Gen.Kernel.Launch
import proofs.«161407_j85976655332046_2_alg».proof.Proof.Gen.Kernel.Points
import proofs.«161407_j85976655332046_2_alg».proof.Proof.Gen.Kernel.Frame
import proofs.«161407_j85976655332046_2_alg».proof.Proof.Gen.KernelIdeal
import proofs.«161407_j85976655332046_2_alg».proof.Proof.Gen.KernelIdeal.Skeleton
import proofs.«161407_j85976655332046_2_alg».proof.Proof.Gen.KernelIdeal.Loops
import proofs.«161407_j85976655332046_2_alg».proof.Proof.Gen.KernelIdeal.Launch
import proofs.«161407_j85976655332046_2_alg».proof.Proof.Gen.KernelIdeal.Points
import proofs.«161407_j85976655332046_2_alg».proof.Proof.Gen.KernelIdeal.Frame
import proofs.«161407_j85976655332046_2_alg».proof.Proof.Gen.ReferenceIdeal
import proofs.«161407_j85976655332046_2_alg».proof.Proof.Gen.Pre_finite_inputs
import proofs.«161407_j85976655332046_2_alg».proof.Proof.RefRead
import proofs.«161407_j85976655332046_2_alg».proof.Proof.RefValue
import proofs.«161407_j85976655332046_2_alg».proof.Proof.KRun
import proofs.«161407_j85976655332046_2_alg».proof.Proof.PreFinite
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_k : Cert.frame_Kernel := fun m ρ _ => Cert.Kernel.Gen.frame m ρ

/-- So does the kernel program at exact arithmetic. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel's guard constant, at both places it is written, is named the exact square of the reference's guard. -/
theorem preserves : Cert.preserves_Kernel_KernelIdeal :=
  ⟨IdealRules.named_const.statement Cert.KernelIdeal.κ "eps_sq" .f32 0x24E69595#32
      ((126765058482001 / 1267650600228229401496703205376 : ℝ) : EReal) rfl,
    IdealRules.named_const.statement Cert.KernelIdeal.κ "eps_sq" .f32 0x24E69595#32
      ((126765058482001 / 1267650600228229401496703205376 : ℝ) : EReal) rfl⟩

/-- From memories agreeing on the arguments, both programs end with the score of every batch entry. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨f0, f1⟩ := Cert.Pre_finite_inputs.Hand.real_of_pre _ _ _ _ (hpre c)
  rw [Cert.ReferenceIdeal.ReadP.val_main_v37_eq, (hagree c).1, (hagree c).2.1, (hagree c).2.2.1, (hagree c).2.2.2]
  funext j
  obtain ⟨b, rfl⟩ : ∃ b : Fin 32, j = ix1 b := ⟨j 0, eq_ix1 j⟩
  rw [Cert.ReferenceIdeal.RefValue.ref_value]
  show _ = Cert.KernelIdeal.Hand.result m c (ix1 b)
  rw [Cert.KernelIdeal.Hand.result_apply]
  unfold Cert.KernelIdeal.Hand.batchScore
  rw [CosSim.normRsqrt_eq_normDiv _ (fun i d => congrFun f0 (ix3 b i d)),
    CosSim.normRsqrt_eq_normDiv _ (fun i d => congrFun f1 (ix3 b i d))]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
